-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x16 : Shape := ⟨3, ![8, 1024, 16]⟩
abbrev S_ : Shape := ⟨0, ![]⟩

class Facts : Prop where
  bcast_S_S8x1024x16 : S_.BroadcastsInDim S8x1024x16 (![] : Fin 0 → Fin S8x1024x16.rank)
  reducesTo_S8x1024x16_S_d0_1_2 : S8x1024x16.ReducesTo [0, 1, 2] S_
  h_S_ : 0 < S_.numel

variable [Facts]

def fn {F : FTy → Type} [FloatOps F] (main_arg0 : FVec F S8x1024x16 .f32) : IVec S_ 1 :=
  let main_v0 : FVec F S8x1024x16 .f32 := Host.absf main_arg0
  let main_cst : FVec F S_ .f32 := constant S_ .f32 0x7F800000#32
  let main_v1 : FVec F S8x1024x16 .f32 := broadcastInDim S8x1024x16 ![] bcast_S_S8x1024x16 main_cst
  let main_v2 : IVec S8x1024x16 1 := cmpf .olt main_v0 main_v1
  let main_c : IVec S_ 1 := constantI S_ 1 1#1
  let main_v3 : IVec S_ 1 := (fun x v => Host.reduce IntOp.andi x v reducesTo_S8x1024x16_S_d0_1_2 h_S_) main_v2 main_c
  main_v3
-- ==== Kernel.lean ====
abbrev S8x1024x16 : Shape := ⟨3, ![8, 1024, 16]⟩
abbrev S8x16x1024 : Shape := ⟨3, ![8, 16, 1024]⟩
abbrev S1x1024x16 : Shape := ⟨3, ![1, 1024, 16]⟩
abbrev S1x16x1024 : Shape := ⟨3, ![1, 16, 1024]⟩
abbrev S1024x16 : Shape := ⟨2, ![1024, 16]⟩
abbrev S16x1024 : Shape := ⟨2, ![16, 1024]⟩
abbrev S16x128 : Shape := ⟨2, ![16, 128]⟩
abbrev S1024x16x1 : Shape := ⟨3, ![1024, 16, 1]⟩
abbrev S1x16x128 : Shape := ⟨3, ![1, 16, 128]⟩
abbrev S1024x16x128 : Shape := ⟨3, ![1024, 16, 128]⟩

abbrev nBuf : Space → Nat
  | .hbm => 3
  | .vmem => 4
  | .smem => 0
  | _ => 0

abbrev bufTy : (tb : Table) → Fin (tcTables nBuf tb) → BufTy
  | .hbm, ⟨0, _⟩ => ⟨S8x1024x16, .f32⟩
  | .hbm, ⟨1, _⟩ => ⟨S8x16x1024, .f32⟩
  | .hbm, ⟨2, _⟩ => ⟨S8x1024x16, .f32⟩
  | .local _ .vmem, ⟨0, _⟩ => ⟨S1x1024x16, .f32⟩
  | .local _ .vmem, ⟨1, _⟩ => ⟨S1x1024x16, .f32⟩
  | .local _ .vmem, ⟨2, _⟩ => ⟨S1x16x1024, .f32⟩
  | .local _ .vmem, ⟨3, _⟩ => ⟨S1x16x1024, .f32⟩
  | _, _ => ⟨S8x1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  transposes_S1024x16_p1_0_S16x1024 : S1024x16.Transposes [1, 0] S16x1024
  slices_S16x1024_o0_0_S16x128 : S16x1024.Slices ![0, 0] S16x128
  shapeCasts_S1024x16_S1024x16x1 : S1024x16.ShapeCasts S1024x16x1
  shapeCasts_S16x128_S1x16x128 : S16x128.ShapeCasts S1x16x128
  broadcasts_S1024x16x1_S1024x16x128 : S1024x16x1.Broadcasts S1024x16x128
  broadcasts_S1x16x128_S1024x16x128 : S1x16x128.Broadcasts S1024x16x128
  reduces_S1024x16x128_S1024x16 : S1024x16x128.Reduces [2] S1024x16
  slices_S16x1024_o0_128_S16x128 : S16x1024.Slices ![0, 128] S16x128
  slices_S16x1024_o0_256_S16x128 : S16x1024.Slices ![0, 256] S16x128
  slices_S16x1024_o0_384_S16x128 : S16x1024.Slices ![0, 384] S16x128
  slices_S16x1024_o0_512_S16x128 : S16x1024.Slices ![0, 512] S16x128
  slices_S16x1024_o0_640_S16x128 : S16x1024.Slices ![0, 640] S16x128
  slices_S16x1024_o0_768_S16x128 : S16x1024.Slices ![0, 768] S16x128
  slices_S16x1024_o0_896_S16x128 : S16x1024.Slices ![0, 896] S16x128
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  shapeCasts_S16x1024_S1x16x1024 : S16x1024.ShapeCasts S1x16x1024
  transposes_S8x16x1024_S8x1024x16_0_2_1 : S8x16x1024.Transposes [0, 2, 1] S8x1024x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x16.size a ≤ S8x1024x16.size a
  hwx0_0 : ∀ i : grid0.Coords, EltTy.bits .f32 = 32 ∨ (Rect.block (s := S8x1024x16) S1x1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x1024.size a ≤ S8x16x1024.size a
  hwx0_1 : ∀ i : grid0.Coords, EltTy.bits .f32 = 32 ∨ (Rect.block (s := S8x16x1024) S1x16x1024.size (cc0_transform_1 i) (hinb0_1 i)).WholeWords (EltTy.packing .f32)

variable [Facts₀]

abbrev win0_0 : Pipeline.Window sig grid0 :=
  Pipeline.Window.ofSpec (Memref.whole main_arg0) S1x1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x1024x16 : Shape := ⟨3, ![8, 1024, 16]⟩
abbrev S8x1024x1x16 : Shape := ⟨4, ![8, 1024, 1, 16]⟩
abbrev S8x1x1024x16 : Shape := ⟨4, ![8, 1, 1024, 16]⟩
abbrev S8x1024x1024x16 : Shape := ⟨4, ![8, 1024, 1024, 16]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x1024x16, .f32⟩
  | .hbm, ⟨1, _⟩ => ⟨S8x1024x1x16, .f32⟩
  | .hbm, ⟨2, _⟩ => ⟨S8x1x1024x16, .f32⟩
  | .hbm, ⟨3, _⟩ => ⟨S8x1024x1024x16, .f32⟩
  | .hbm, ⟨4, _⟩ => ⟨S8x1024x1024x16, .f32⟩
  | .hbm, ⟨5, _⟩ => ⟨S8x1024x1024x16, .f32⟩
  | .hbm, ⟨6, _⟩ => ⟨S_, .f32⟩
  | .hbm, ⟨7, _⟩ => ⟨S8x1024x1024x16, .f32⟩
  | .hbm, ⟨8, _⟩ => ⟨S8x1024x1024x16, .f32⟩
  | .hbm, ⟨9, _⟩ => ⟨S8x1024x1024x16, .f32⟩
  | .hbm, ⟨10, _⟩ => ⟨S8x1024x1024x16, .f32⟩
  | .hbm, ⟨11, _⟩ => ⟨S_, .f32⟩
  | .hbm, ⟨12, _⟩ => ⟨S8x1024x1024x16, .f32⟩
  | .hbm, ⟨13, _⟩ => ⟨S8x1024x1024x16, .f32⟩
  | .hbm, ⟨14, _⟩ => ⟨S_, .f32⟩
  | .hbm, ⟨15, _⟩ => ⟨S8x1024x1024x16, .f32⟩
  | .hbm, ⟨16, _⟩ => ⟨S8x1024x1024x16, .f32⟩
  | .hbm, ⟨17, _⟩ => ⟨S_, .f32⟩
  | .hbm, ⟨18, _⟩ => ⟨S8x1024x16, .f32⟩
  | .hbm, ⟨19, _⟩ => ⟨S_, .f32⟩
  | .hbm, ⟨20, _⟩ => ⟨S8x1024x16, .f32⟩
  | .hbm, ⟨21, _⟩ => ⟨S8x1024x16, .f32⟩
  | _, _ => ⟨S8x1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S8x1024x16_S8x1024x1x16_0_1_3 : S8x1024x16.BroadcastsInDim S8x1024x1x16 (![0, 1, 3] : Fin 3 → Fin S8x1024x1x16.rank)
  bcast_S8x1024x16_S8x1x1024x16_0_2_3 : S8x1024x16.BroadcastsInDim S8x1x1024x16 (![0, 2, 3] : Fin 3 → Fin S8x1x1024x16.rank)
  bcast_S8x1024x1x16_S8x1024x1024x16_0_1_2_3 : S8x1024x1x16.BroadcastsInDim S8x1024x1024x16 (![0, 1, 2, 3] : Fin 4 → Fin S8x1024x1024x16.rank)
  bcast_S8x1x1024x16_S8x1024x1024x16_0_1_2_3 : S8x1x1024x16.BroadcastsInDim S8x1024x1024x16 (![0, 1, 2, 3] : Fin 4 → Fin S8x1024x1024x16.rank)
  bcast_S_S8x1024x1024x16 : S_.BroadcastsInDim S8x1024x1024x16 (![] : Fin 0 → Fin S8x1024x1024x16.rank)
  reducesTo_S8x1024x1024x16_S8x1024x16_d2 : S8x1024x1024x16.ReducesTo [2] S8x1024x16
  h_S_ : 0 < S_.numel
  bcast_S_S8x1024x16 : S_.BroadcastsInDim S8x1024x16 (![] : Fin 0 → Fin S8x1024x16.rank)

variable [Facts₀]

class Facts : Prop extends Facts₀ where

variable [Facts]
-- ==== Proof.Spec.lean ====
/-
  The two closed forms this certificate compares, index by index, over the extended reals.

  The argument x has shape [8, 1024, 16]: 8 batches, 1024 rows, 16 channels. Both programs compute, at (b, j, c),
  the mean over the 1024 rows i of a smooth step of x[b,j,c] − x[b,i,c]:

  • the reference writes the step as the logistic function of 1000·d, spelled 1 / (1 + e^(−(1000·d))), sums it over
    all 1024 rows at once starting from 0, and divides by 1024;
  • the kernel writes the same step as ½·(tanh(500·d) + 1), sums it over eight consecutive groups of 128 rows,
    adds the eight group sums one after the other onto 0, and multiplies by 2⁻¹⁰.

  Every float literal is kept as the word the programs print; their values are in Consts.lean.
-/
import Idealize.ShloMosaic.PureOps.Ideal
import Idealize.ShloMosaic.Lib.ValueIdx

noncomputable section

namespace Cert.SoftRank

open Idealize.ShloMosaic Idealize.ShloMosaic.ValueIdx

/-- The argument's and the result's shape. -/
abbrev SX : Shape := ⟨3, ![8, 1024, 16]⟩

/-- The reference's step of a difference a − b: 1 / (1 + e^(−(1000·(a − b)))). -/
def stepRef (a b : EReal) : EReal :=
  Ideal.div (Ideal.ofBits .f32 0x3F800000#32)
    (Ideal.ofBits .f32 0x3F800000#32 + Ideal.exp (-(Ideal.ofBits .f32 0x447A0000#32 * (a - b))))

/-- The reference's value at (b, j, c): 0 plus the sum over all rows i of the step of x[b,j,c] − x[b,i,c], divided by 1024. -/
def refAt (x : SX.Idx → EReal) (b : Fin 8) (j : Fin 1024) (c : Fin 16) : EReal :=
  Ideal.div (Ideal.ofBits .f32 0x00000000#32 + ∑ i : Fin 1024, stepRef (x (ix3 b j c)) (x (ix3 b i c)))
    (Ideal.ofBits .f32 0x44800000#32)

/-- The reference's result array. -/
def refForm (x : SX.Idx → EReal) : SX.Idx → EReal := fun i => refAt x (i 0) (i 1) (i 2)

/-- The kernel's step of a difference a − b: ½·(tanh(500·(a − b)) + 1). -/
def stepKer (a b : EReal) : EReal :=
  Ideal.ofBits .f32 0x3F000000#32
    * (Ideal.tanh (Ideal.ofBits .f32 0x43FA0000#32 * (a - b)) + Ideal.ofBits .f32 0x3F800000#32)

/-- Row o + l of the group of 128 rows that starts at row o. -/
def groupRow (o : Nat) (ho : o + 128 ≤ 1024) (l : Fin 128) : Fin 1024 := ⟨o + l.val, by omega⟩

/-- The kernel's sum over the group of 128 rows starting at row o, at (b, j, c). -/
def groupSum (x : SX.Idx → EReal) (b : Fin 8) (j : Fin 1024) (c : Fin 16) (o : Nat) (ho : o + 128 ≤ 1024) : EReal :=
  ∑ l : Fin 128, stepKer (x (ix3 b j c)) (x (ix3 b (groupRow o ho l) c))

/-- The kernel's value at (b, j, c): the eight group sums added in order onto 0, times 2⁻¹⁰. -/
def kerAt (x : SX.Idx → EReal) (b : Fin 8) (j : Fin 1024) (c : Fin 16) : EReal :=
  ((((((((Ideal.ofBits .f32 0x00000000#32
    + groupSum x b j c 0 (by omega)) + groupSum x b j c 128 (by omega)) + groupSum x b j c 256 (by omega))
    + groupSum x b j c 384 (by omega)) + groupSum x b j c 512 (by omega)) + groupSum x b j c 640 (by omega))
    + groupSum x b j c 768 (by omega)) + groupSum x b j c 896 (by omega))
    * Ideal.ofBits .f32 0x3A800000#32

/-- The kernel's result array (after the host's transpose back to [8, 1024, 16]). -/
def kerForm (x : SX.Idx → EReal) : SX.Idx → EReal := fun i => kerAt x (i 0) (i 1) (i 2)

/-- Every entry of the array is a real number. -/
def AllReal (x : SX.Idx → EReal) : Prop := ∀ i, ∃ r : ℝ, x i = (r : EReal)

end Cert.SoftRank

end
-- ==== Proof.LibRankThreeForms.lean ====
/-
  Layout operations on rank-3 arrays read at an index given by coordinates: a middle or trailing unit axis added,
  dropped or broadcast, the two leading axes merged into one or split again, and a slice along the last axis.
  Each is the general reading of a shape cast (equal row-major positions), a broadcast (the unit axis reads
  coordinate 0) or a slice (the offset is added) specialised to indices written by their coordinates.
-/
import Idealize.ShloMosaic.Lib.ValueIdx
import Idealize.ShloMosaic.Lib.Pipeline.Value

namespace Idealize.ShloMosaic.ValueIdx

open Idealize.ShloMosaic

variable {α : Type}

/-- Splitting the leading axis of an [a·b, c] array into [a, b, c]: entry (r, n, k) is entry (r·b + n, k). -/
theorem shapeCast_pc_abc_apply {a b c ab : ℕ} (x : (⟨2, ![ab, c]⟩ : Shape).Idx → α)
    (h : (⟨2, ![ab, c]⟩ : Shape).ShapeCasts ⟨3, ![a, b, c]⟩) (r : Fin a) (n : Fin b) (k : Fin c) (p : Fin ab)
    (hp : p.val = r.val * b + n.val) : shapeCast ⟨3, ![a, b, c]⟩ x h (ix3 r n k) = x (ix2 p k) :=
  shapeCast_apply x h _ _ (by
    rw [Shape.rowMajor_val_three, Shape.rowMajor_val_two]
    show p.val * c + k.val = (r.val * b + n.val) * c + k.val
    rw [hp])

/-- Merging the two leading axes of an [a, b, c] array into [a·b, c]: entry (r·b + n, k) is entry (r, n, k). -/
theorem shapeCast_abc_pc_apply {a b c ab : ℕ} (x : (⟨3, ![a, b, c]⟩ : Shape).Idx → α)
    (h : (⟨3, ![a, b, c]⟩ : Shape).ShapeCasts ⟨2, ![ab, c]⟩) (r : Fin a) (n : Fin b) (k : Fin c) (p : Fin ab)
    (hp : p.val = r.val * b + n.val) : shapeCast ⟨2, ![ab, c]⟩ x h (ix2 p k) = x (ix3 r n k) :=
  shapeCast_apply x h _ _ (by
    rw [Shape.rowMajor_val_three, Shape.rowMajor_val_two]
    show (r.val * b + n.val) * c + k.val = p.val * c + k.val
    rw [hp])

/-- A unit axis put in the middle of an [a, c] array: entry (r, u, k) of the [a, 1, c] array is entry (r, k). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (k : Fin c) :
    shapeCast ⟨3, ![a, 1, c]⟩ x h (ix3 r u k) = x (ix2 r k) :=
  shapeCast_apply x h _ _ (by
    have hu : u.val = 0 := by omega
    rw [Shape.rowMajor_val_three, Shape.rowMajor_val_two]
    show r.val * c + k.val = (r.val * 1 + u.val) * c + k.val
    rw [hu, Nat.mul_one, Nat.add_zero])

/-- A middle unit axis broadcast to length b: entry (r, n, k) reads entry (r, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (n : Fin b) (k : Fin c) :
    broadcastTo ⟨3, ![a, b, c]⟩ x h (ix3 r n k) = x (ix3 r (0 : Fin 1) k) := by
  refine broadcastTo_apply x h (ix3 r n k) (ix3 r (0 : Fin 1) k) fun ax => ?_
  match ax with
  | ⟨0, _⟩ =>
    show r.val = if a = 1 then 0 else r.val
    split
    · omega
    · rfl
  | ⟨1, _⟩ => rfl
  | ⟨2, _⟩ =>
    show k.val = if c = 1 then 0 else k.val
    split
    · omega
    · rfl

/-- A trailing unit axis dropped: entry (r, n) of the [a, b] array is entry (r, n, 0) of the [a, b, 1] one. -/
theorem shapeCast_ab1_ab_apply {a b : ℕ} (x : (⟨3, ![a, b, 1]⟩ : Shape).Idx → α)
    (h : (⟨3, ![a, b, 1]⟩ : Shape).ShapeCasts ⟨2, ![a, b]⟩) (r : Fin a) (n : Fin b) :
    shapeCast ⟨2, ![a, b]⟩ x h (ix2 r n) = x (ix3 r n (0 : Fin 1)) :=
  shapeCast_apply x h _ _ (by
    rw [Shape.rowMajor_val_three, Shape.rowMajor_val_two]
    show (r.val * b + n.val) * 1 + 0 = r.val * b + n.val
    rw [Nat.mul_one, Nat.add_zero])

/-- A trailing unit axis added: entry (r, n, u) of the [a, b, 1] array is entry (r, n) of the [a, b] one. -/
theorem shapeCast_ab_ab1_apply {a b : ℕ} (x : (⟨2, ![a, b]⟩ : Shape).Idx → α)
    (h : (⟨2, ![a, b]⟩ : Shape).ShapeCasts ⟨3, ![a, b, 1]⟩) (r : Fin a) (n : Fin b) (u : Fin 1) :
    shapeCast ⟨3, ![a, b, 1]⟩ x h (ix3 r n u) = x (ix2 r n) :=
  shapeCast_apply x h _ _ (by
    have hu : u.val = 0 := by omega
    rw [Shape.rowMajor_val_three, Shape.rowMajor_val_two]
    show r.val * b + n.val = (r.val * b + n.val) * 1 + u.val
    rw [hu, Nat.mul_one, Nat.add_zero])

/-- A trailing unit axis broadcast to length c: entry (r, n, k) reads entry (r, n, 0). -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (n : Fin b) (k : Fin c) :
    broadcastTo ⟨3, ![a, b, c]⟩ x h (ix3 r n k) = x (ix3 r n (0 : Fin 1)) := by
  refine broadcastTo_apply x h (ix3 r n k) (ix3 r n (0 : Fin 1)) fun ax => ?_
  match ax with
  | ⟨0, _⟩ =>
    show r.val = if a = 1 then 0 else r.val
    split
    · omega
    · rfl
  | ⟨1, _⟩ =>
    show n.val = if b = 1 then 0 else n.val
    split
    · omega
    · rfl
  | ⟨2, _⟩ => rfl

/-- A rank-3 array cut along its last axis from `o` reads, at (r, n, j), the source at (r, n, k) with k = o + j. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (r : Fin n0) (n : Fin n1) (j : Fin m) (k : Fin n2) (hk : k.val = o + j.val) :
    extractStridedSlice ⟨3, ![n0, n1, m]⟩ ![0, 0, o] X h (ix3 r n j) = X (ix3 r n k) :=
  extractStridedSlice_apply _ _ _ _ _ (fun ax => by
    match ax with
    | ⟨0, _⟩ => exact (Nat.zero_add _).symm
    | ⟨1, _⟩ => exact (Nat.zero_add _).symm
    | ⟨2, _⟩ => exact hk)

end Idealize.ShloMosaic.ValueIdx
-- ==== Proof.LibRankThreeLeadingForms.lean ====
/-
  Layout operations on rank-3 arrays whose LEADING axes are units, read at an index given by coordinates: one
  [b, c] slab broadcast over a new leading axis, a vector placed on the last axis of a [1, 1, c] array, and that array
  broadcast over both leading axes; and a MIDDLE unit axis dropped by a shape cast. A broadcast reads coordinate 0 on
  every unit axis of its operand; a shape cast keeps the row-major position.
-/
import Idealize.ShloMosaic.Lib.ValueIdx
import Idealize.ShloMosaic.Lib.Pipeline.Value

namespace Idealize.ShloMosaic.ValueIdx

open Idealize.ShloMosaic

variable {α : Type}

/-- A leading unit axis broadcast to length a: entry (r, n, k) reads entry (0, n, k). -/
theorem broadcastTo_1bc_abc_apply {a b c : ℕ} (x : (⟨3, ![1, b, c]⟩ : Shape).Idx → α)
    (h : (⟨3, ![1, b, c]⟩ : Shape).Broadcasts ⟨3, ![a, b, c]⟩) (r : Fin a) (n : Fin b) (k : Fin c) :
    broadcastTo ⟨3, ![a, b, c]⟩ x h (ix3 r n k) = x (ix3 (0 : Fin 1) n k) := by
  refine broadcastTo_apply x h (ix3 r n k) (ix3 (0 : Fin 1) n k) fun ax => ?_
  match ax with
  | ⟨0, _⟩ => rfl
  | ⟨1, _⟩ =>
    show n.val = if b = 1 then 0 else n.val
    split
    · omega
    · rfl
  | ⟨2, _⟩ =>
    show k.val = if c = 1 then 0 else k.val
    split
    · omega
    · rfl

/-- A vector placed on the last axis of a [1, 1, c] array: entry (u, v, k) is entry k. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    simp)

/-- Both leading unit axes broadcast: entry (r, n, k) reads entry (0, 0, k). -/
theorem broadcastTo_11c_abc_apply {a b c : ℕ} (x : (⟨3, ![1, 1, c]⟩ : Shape).Idx → α)
    (h : (⟨3, ![1, 1, c]⟩ : Shape).Broadcasts ⟨3, ![a, b, c]⟩) (r : Fin a) (n : Fin b) (k : Fin c) :
    broadcastTo ⟨3, ![a, b, c]⟩ x h (ix3 r n k) = x (ix3 (0 : Fin 1) (0 : Fin 1) k) := by
  refine broadcastTo_apply x h (ix3 r n k) (ix3 (0 : Fin 1) (0 : Fin 1) k) fun ax => ?_
  match ax with
  | ⟨0, _⟩ => rfl
  | ⟨1, _⟩ => rfl
  | ⟨2, _⟩ =>
    show k.val = if c = 1 then 0 else k.val
    split
    · omega
    · rfl

/-- A middle unit axis dropped: entry (r, k) of the [a, c] array is entry (r, 0, k) of the [a, 1, c] one. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (k : Fin c) :
    shapeCast ⟨2, ![a, c]⟩ x h (ix2 r k) = x (ix3 r (0 : Fin 1) k) :=
  shapeCast_apply x h _ _ (by
    rw [Shape.rowMajor_val_three, Shape.rowMajor_val_two]
    show (r.val * 1 + 0) * c + k.val = r.val * c + k.val
    rw [Nat.mul_one, Nat.add_zero])

end Idealize.ShloMosaic.ValueIdx
-- ==== Proof.GroupTerm.lean ====
/-
  One group of 128 rows inside the kernel body, read at coordinates, over the extended reals.

  The body holds the block's rows as v1 : [1024, 16] and their transpose v2 : [16, 1024]. For the group of rows
  o … o + 127 it forms the array [1024, 16, 128] whose entry (n, c, l) is tanh(500·(v1[n,c] − v2[c, o+l])) + 1:
  v1 gets a trailing unit axis that is broadcast along the 128 lanes, the slice v2[:, o : o+128] gets a leading unit
  axis that is broadcast along the 1024 rows. Halved and summed over the lanes this is the group's contribution at (n, c).
-/
import proofs.«164434_j6425271075476_2_alg».proof.KernelIdeal
import proofs.«164434_j6425271075476_2_alg».proof.Proof.Spec
import proofs.«164434_j6425271075476_2_alg».proof.Proof.LibRankThreeForms
import proofs.«164434_j6425271075476_2_alg».proof.Proof.LibRankThreeLeadingForms
import Idealize.ShloMosaic.Lib.ValueLayout
import Idealize.ShloMosaic.PureOps.Ideal.Laws

noncomputable section

namespace Cert.SoftRank

open Idealize.ShloMosaic Idealize.ShloMosaic.ValueIdx Cert.KernelIdeal

/-- Entry (n, c, l) of the group's array before halving: tanh(500·(v1[n,c] − v2[c,k])) + 1 with k = o + l. -/
theorem tanhPlusOne_apply (v1 : FVec Ideal S1024x16 .f32) (v2 : FVec Ideal S16x1024 .f32) (o : Nat)
    (hs : S16x1024.Slices ![0, o] S16x128) (h1 : S1024x16.ShapeCasts S1024x16x1) (h2 : S16x128.ShapeCasts S1x16x128)
    (h3 : S1024x16x1.Broadcasts S1024x16x128) (h4 : S1x16x128.Broadcasts S1024x16x128)
    (n : Fin 1024) (c : Fin 16) (l : Fin 128) (k : Fin 1024) (hk : k.val = o + l.val) :
    addf (tanh (mulf (broadcast S1024x16x128 (Scalar.ofBits (F := Ideal) .f32 0x43FA0000#32))
        (subf (broadcastTo S1024x16x128 (shapeCast S1024x16x1 v1 h1) h3)
          (broadcastTo S1024x16x128 (shapeCast S1x16x128 (extractStridedSlice S16x128 ![0, o] v2 hs) h2) h4))))
      (broadcast S1024x16x128 (Scalar.ofBits (F := Ideal) .f32 0x3F800000#32)) (ix3 n c l)
    = Ideal.tanh (Ideal.ofBits .f32 0x43FA0000#32 * (v1 (ix2 n c) - v2 (ix2 c k))) + Ideal.ofBits .f32 0x3F800000#32 := by
  have e1 : broadcastTo S1024x16x128 (shapeCast S1024x16x1 v1 h1) h3 (ix3 n c l) = v1 (ix2 n c) :=
    (broadcastTo_ab1_abc_apply _ h3 n c l).trans (shapeCast_ab_ab1_apply v1 h1 n c 0)
  have e2 : broadcastTo S1024x16x128 (shapeCast S1x16x128 (extractStridedSlice S16x128 ![0, o] v2 hs) h2) h4 (ix3 n c l)
      = v2 (ix2 c k) :=
    ((broadcastTo_1bc_abc_apply _ h4 n c l).trans (shapeCast_ab_1ab_apply _ h2 0 c l)).trans
      (slice2_axis1_apply o v2 hs c l k hk)
  show Ideal.tanh (Ideal.ofBits .f32 0x43FA0000#32
      * (broadcastTo S1024x16x128 (shapeCast S1024x16x1 v1 h1) h3 (ix3 n c l)
        - broadcastTo S1024x16x128 (shapeCast S1x16x128 (extractStridedSlice S16x128 ![0, o] v2 hs) h2) h4 (ix3 n c l)))
      + Ideal.ofBits .f32 0x3F800000#32 = _
  rw [e1, e2]

/-- A sum over the 128 lanes of a [1024, 16, 128] array, read at (n, c). -/
theorem laneSum_apply (P : FVec Ideal S1024x16x128 .f32) (h : S1024x16x128.Reduces [2] S1024x16)
    (hφ : FKind.Formats .f32) (hacc : (0x00000000#32 : BitVec (FTy.f32).bits) = FKind.add.neutral .f32 hφ)
    (n : Fin 1024) (c : Fin 16) :
    multiReduction .add [2] S1024x16 P 0x00000000#32 h hφ hacc (ix2 n c) = ∑ l : Fin 128, P (ix3 n c l) :=
  (Ideal.multiReduction_add_single P 0x00000000#32 h hφ hacc (ix2 n c)).trans
    (Finset.sum_congr rfl fun l _ => congrArg P (funext fun a => Fin.ext (by
      match a with
      | ⟨0, _⟩ => rfl
      | ⟨1, _⟩ => rfl
      | ⟨2, _⟩ => rfl)))

/-- The same sum of an array halved entry by entry. -/
theorem halfLaneSum_apply (P : FVec Ideal S1024x16x128 .f32) (h : S1024x16x128.Reduces [2] S1024x16)
    (hφ : FKind.Formats .f32) (hacc : (0x00000000#32 : BitVec (FTy.f32).bits) = FKind.add.neutral .f32 hφ)
    (n : Fin 1024) (c : Fin 16) :
    multiReduction .add [2] S1024x16 (mulf (broadcast S1024x16x128 (Scalar.ofBits (F := Ideal) .f32 0x3F000000#32)) P)
      0x00000000#32 h hφ hacc (ix2 n c)
    = ∑ l : Fin 128, Ideal.ofBits .f32 0x3F000000#32 * P (ix3 n c l) :=
  laneSum_apply _ h hφ hacc n c

/-- The group's contribution at (n, c): the sum over its 128 rows of ½·(tanh(500·(v1[n,c] − v2[c, o+l])) + 1). -/
theorem group_apply (v1 : FVec Ideal S1024x16 .f32) (v2 : FVec Ideal S16x1024 .f32) (o : Nat) (ho : o + 128 ≤ 1024)
    (hs : S16x1024.Slices ![0, o] S16x128) (h1 : S1024x16.ShapeCasts S1024x16x1) (h2 : S16x128.ShapeCasts S1x16x128)
    (h3 : S1024x16x1.Broadcasts S1024x16x128) (h4 : S1x16x128.Broadcasts S1024x16x128)
    (h : S1024x16x128.Reduces [2] S1024x16)
    (hφ : FKind.Formats .f32) (hacc : (0x00000000#32 : BitVec (FTy.f32).bits) = FKind.add.neutral .f32 hφ)
    (n : Fin 1024) (c : Fin 16) :
    multiReduction .add [2] S1024x16
      (mulf (broadcast S1024x16x128 (Scalar.ofBits (F := Ideal) .f32 0x3F000000#32))
        (addf (tanh (mulf (broadcast S1024x16x128 (Scalar.ofBits (F := Ideal) .f32 0x43FA0000#32))
            (subf (broadcastTo S1024x16x128 (shapeCast S1024x16x1 v1 h1) h3)
              (broadcastTo S1024x16x128 (shapeCast S1x16x128 (extractStridedSlice S16x128 ![0, o] v2 hs) h2) h4))))
          (broadcast S1024x16x128 (Scalar.ofBits (F := Ideal) .f32 0x3F800000#32))))
      0x00000000#32 h hφ hacc (ix2 n c)
    = ∑ l : Fin 128, stepKer (v1 (ix2 n c)) (v2 (ix2 c (groupRow o ho l))) :=
  (halfLaneSum_apply _ h hφ hacc n c).trans (Finset.sum_congr rfl fun l _ =>
    congrArg (Ideal.ofBits .f32 0x3F000000#32 * ·) (tanhPlusOne_apply v1 v2 o hs h1 h2 h3 h4 n c l (groupRow o ho l) rfl))

end Cert.SoftRank

end
-- ==== Proof.BlockValue.lean ====
/-
  The kernel body's stored value on one block, read at coordinates.

  The body loads the block x0 : [1, 1024, 16] (one batch), drops the unit axis to get the rows v1[n,c] = x0[0,n,c] and
  transposes them to v2[c,n] = x0[0,n,c]. It then adds eight group sums onto a zero array — the text of the body is cut
  by position into stretches, so the running sum passes through three named intermediate values — multiplies by 2⁻¹⁰,
  transposes to [16, 1024] and stores with a leading unit axis. So the stored entry (0, c, n) is the eight group sums of
  row n and channel c, added in order onto 0, times 2⁻¹⁰.
-/
import proofs.«164434_j6425271075476_2_alg».proof.Proof.Gen.KernelIdeal.Skeleton
import proofs.«164434_j6425271075476_2_alg».proof.Proof.GroupTerm

noncomputable section

namespace Cert.SoftRank

open Idealize.ShloMosaic Idealize.ShloMosaic.ValueIdx Cert.KernelIdeal Cert.KernelIdeal.Gen

/-- The rows of the block: entry (n, c) is x0[0, n, c]. -/
theorem rows_apply (x0 : Vec Ideal S1x1024x16 .f32) (n : Fin 1024) (c : Fin 16) :
    k0_pay2 x0 (ix2 n c) = x0 (ix3 (0 : Fin 1) n c) := by
  unfold k0_pay2
  exact shapeCast_1ab_ab_apply x0 _ n c

/-- The transposed rows: entry (c, n) is x0[0, n, c]. -/
theorem rowsT_apply (x0 : Vec Ideal S1x1024x16 .f32) (c : Fin 16) (n : Fin 1024) :
    k0_pay3 x0 (ix2 c n) = x0 (ix3 (0 : Fin 1) n c) := by
  unfold k0_pay3
  exact (transpose_ix2_apply (k0_pay2 x0) _ c n).trans (rows_apply x0 n c)

/-- One group sum over the rows v1 and their transpose v2, at (n, c). -/
def vGroup (v1 : FVec Ideal S1024x16 .f32) (v2 : FVec Ideal S16x1024 .f32) (n : Fin 1024) (c : Fin 16)
    (o : Nat) (ho : o + 128 ≤ 1024) : EReal :=
  ∑ l : Fin 128, stepKer (v1 (ix2 n c)) (v2 (ix2 c (groupRow o ho l)))

/-- The running sum after the groups at rows 0 and 128. -/
theorem acc2_apply (x0 : Vec Ideal S1x1024x16 .f32) (n : Fin 1024) (c : Fin 16) :
    k0_pay4 x0 (ix2 n c)
    = (Ideal.ofBits .f32 0x00000000#32 + vGroup (k0_pay2 x0) (k0_pay3 x0) n c 0 (by omega))
      + vGroup (k0_pay2 x0) (k0_pay3 x0) n c 128 (by omega) := by
  unfold k0_pay4
  refine (addf_apply _ _ _).trans (congrArg₂ (· + ·) ((addf_apply _ _ _).trans (congrArg₂ (· + ·) rfl ?_)) ?_)
  · exact group_apply (k0_pay2 x0) (k0_pay3 x0) 0 (by omega) _ _ _ _ _ _ _ _ n c
  · exact group_apply (k0_pay2 x0) (k0_pay3 x0) 128 (by omega) _ _ _ _ _ _ _ _ n c

/-- The group at row 256 before halving and summing: entry (n, c, l). -/
theorem pre256_apply (x0 : Vec Ideal S1x1024x16 .f32) (n : Fin 1024) (c : Fin 16) (l : Fin 128) :
    k0_pay5 x0 (ix3 n c l)
    = Ideal.tanh (Ideal.ofBits .f32 0x43FA0000#32
        * (k0_pay2 x0 (ix2 n c) - k0_pay3 x0 (ix2 c (groupRow 256 (by omega) l)))) + Ideal.ofBits .f32 0x3F800000#32 := by
  unfold k0_pay5
  exact tanhPlusOne_apply (k0_pay2 x0) (k0_pay3 x0) 256 _ _ _ _ _ n c l (groupRow 256 (by omega) l) rfl

/-- The running sum after the groups at rows 256, 384 and 512, from the sum so far (v33) and the group at 256 before
    halving (v44). -/
theorem acc5_apply (v1 : FVec Ideal S1024x16 .f32) (v2 : FVec Ideal S16x1024 .f32) (v33 : FVec Ideal S1024x16 .f32)
    (v44 : FVec Ideal S1024x16x128 .f32) (n : Fin 1024) (c : Fin 16) :
    k0_pay6 v1 v2 v33 v44 (ix2 n c)
    = ((v33 (ix2 n c) + ∑ l : Fin 128, Ideal.ofBits .f32 0x3F000000#32 * v44 (ix3 n c l))
        + vGroup v1 v2 n c 384 (by omega)) + vGroup v1 v2 n c 512 (by omega) := by
  unfold k0_pay6
  refine (addf_apply _ _ _).trans (congrArg₂ (· + ·) ((addf_apply _ _ _).trans (congrArg₂ (· + ·)
    ((addf_apply _ _ _).trans (congrArg₂ (· + ·) rfl ?_)) ?_)) ?_)
  · exact halfLaneSum_apply v44 _ _ _ n c
  · exact group_apply v1 v2 384 (by omega) _ _ _ _ _ _ _ _ n c
  · exact group_apply v1 v2 512 (by omega) _ _ _ _ _ _ _ _ n c

/-- The group at row 640 before summing: entry (n, c, l). -/
theorem pre640_apply (v1 : FVec Ideal S1024x16 .f32) (v2 : FVec Ideal S16x1024 .f32) (n : Fin 1024) (c : Fin 16) (l : Fin 128) :
    k0_pay7 v1 v2 (ix3 n c l) = stepKer (v1 (ix2 n c)) (v2 (ix2 c (groupRow 640 (by omega) l))) := by
  unfold k0_pay7
  exact congrArg (Ideal.ofBits .f32 0x3F000000#32 * ·)
    (tanhPlusOne_apply v1 v2 640 _ _ _ _ _ n c l (groupRow 640 (by omega) l) rfl)

/-- The stored value at (0, c, n), from the sum so far (v78) and the group at 640 before summing (v91): the groups at
    640, 768 and 896 are added, the total is multiplied by 2⁻¹⁰, and the transpose puts row n in the last place. -/
theorem stored_apply (v1 : FVec Ideal S1024x16 .f32) (v2 : FVec Ideal S16x1024 .f32) (v78 : FVec Ideal S1024x16 .f32)
    (v91 : FVec Ideal S1024x16x128 .f32) (c : Fin 16) (n : Fin 1024) :
    k0_pay1 v1 v2 v78 v91 (ix3 (0 : Fin 1) c n)
    = (((v78 (ix2 n c) + ∑ l : Fin 128, v91 (ix3 n c l)) + vGroup v1 v2 n c 768 (by omega))
        + vGroup v1 v2 n c 896 (by omega)) * Ideal.ofBits .f32 0x3A800000#32 := by
  unfold k0_pay1
  refine (shapeCast_ab_1ab_apply _ _ 0 c n).trans ((transpose_ix2_apply _ _ c n).trans ?_)
  refine (mulf_apply _ _ _).trans (congrArg₂ (· * ·) ?_ rfl)
  refine (addf_apply _ _ _).trans (congrArg₂ (· + ·) ((addf_apply _ _ _).trans (congrArg₂ (· + ·)
    ((addf_apply _ _ _).trans (congrArg₂ (· + ·) rfl ?_)) ?_)) ?_)
  · exact laneSum_apply v91 _ _ _ n c
  · exact group_apply v1 v2 768 (by omega) _ _ _ _ _ _ _ _ n c
  · exact group_apply v1 v2 896 (by omega) _ _ _ _ _ _ _ _ n c

/-- The stored block against the whole argument X: when the block is batch b of X, the stored entry (0, c, n) is the
    kernel's closed form at (b, n, c). -/
theorem stored_block (X : SX.Idx → EReal) (b : Fin 8) (x0 : Vec Ideal S1x1024x16 .f32)
    (hx : ∀ (n : Fin 1024) (c : Fin 16), x0 (ix3 (0 : Fin 1) n c) = X (ix3 b n c)) (c : Fin 16) (n : Fin 1024) :
    k0_pay1 (k0_pay2 x0) (k0_pay3 x0) (k0_pay6 (k0_pay2 x0) (k0_pay3 x0) (k0_pay4 x0) (k0_pay5 x0))
      (k0_pay7 (k0_pay2 x0) (k0_pay3 x0)) (ix3 (0 : Fin 1) c n)
    = kerAt X b n c := by
  rw [stored_apply, acc5_apply, acc2_apply]
  simp only [pre256_apply, pre640_apply, vGroup, rows_apply, rowsT_apply, hx]
  rfl

/-- The kernel's own output array [8, 16, 1024]: entry (b, c, n) is the closed form at (b, n, c). -/
def kerT (X : SX.Idx → EReal) : S8x16x1024.Idx → EReal := fun i => kerAt X (i 0) (i 2) (i 1)

/-- The same, with the stored entry's index y and the array index i it lands on as variables: i's batch is the
    block's, and its last two coordinates are y's. -/
theorem stored_block_at (X : SX.Idx → EReal) (x0 : Vec Ideal S1x1024x16 .f32) (y : S1x16x1024.Idx) (i : S8x16x1024.Idx)
    (hx : ∀ (n : Fin 1024) (c : Fin 16), x0 (ix3 (0 : Fin 1) n c) = X (ix3 (i 0) n c))
    (h1 : (i 1).val = (y 1).val) (h2 : (i 2).val = (y 2).val) :
    k0_pay1 (k0_pay2 x0) (k0_pay3 x0) (k0_pay6 (k0_pay2 x0) (k0_pay3 x0) (k0_pay4 x0) (k0_pay5 x0))
      (k0_pay7 (k0_pay2 x0) (k0_pay3 x0)) y
    = kerT X i := by
  obtain ⟨u, c, n, rfl⟩ : ∃ (u : Fin 1) (c : Fin 16) (n : Fin 1024), y = ix3 u c n := ⟨y 0, y 1, y 2, eq_ix3 y⟩
  obtain rfl : u = 0 := Subsingleton.elim _ _
  obtain ⟨b, c', n', rfl⟩ : ∃ (b : Fin 8) (c' : Fin 16) (n' : Fin 1024), i = ix3 b c' n' := ⟨i 0, i 1, i 2, eq_ix3 i⟩
  obtain rfl : c' = c := Fin.ext h1
  obtain rfl : n' = n := Fin.ext h2
  exact stored_block X b x0 hx c' n'

end Cert.SoftRank

end
-- ==== Proof.KernelArray.lean ====
/-
  From blocks to arrays on the kernel's side.

  The grid has one point per batch. At point t the input block is batch t of the argument (all 1024 rows, all 16
  channels) and the output block is batch t of the kernel's own output array [8, 16, 1024] (all 16 channels, all 1024
  rows). What the point writes back is therefore batch t of the closed form, transposed; the eight output blocks tile
  the output array, so after the last point the array holds the transposed closed form everywhere. The host's
  transpose [0, 2, 1] then puts rows before channels again.
-/
import proofs.«164434_j6425271075476_2_alg».proof.Proof.Gen.KernelIdeal.Frame
import proofs.«164434_j6425271075476_2_alg».proof.Proof.BlockValue
import Idealize.ShloMosaic.Lib.Pipeline.Value
import Idealize.ShloMosaic.Lib.StableHlo.Run

set_option maxRecDepth 16384

noncomputable section

namespace Cert.SoftRank

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

theorem offsets_zero : (![0, 0, 0] : Fin 3 → Nat) = fun _ => 0 := funext fun a => by fin_cases a <;> rfl

/-- The two index maps over the grid: both windows' block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The input block at point t is batch t of the argument array as the region finds it. -/
theorem inputBlock_apply (c : Dev nD) (t : Fin cfg0.N) (b : Fin 8) (hb : b.val = t.val) (n : Fin 1024) (cc : Fin 16) :
    iblk m c 0 t (ix3 (0 : Fin 1) n cc) = (V m c main_arg0 : SX.Idx → EReal) (ix3 b n cc) := by
  show V m c main_arg0 (((cfg0.win 0).blk t).view.emb (ix3 (0 : Fin 1) n cc)) = V m c main_arg0 (ix3 b n cc)
  refine congrArg (V m c main_arg0) (funext fun a => Fin.ext ?_)
  obtain ⟨e0, e1, e2, -, -, -⟩ := idx_facts t
  match a with
  | ⟨0, _⟩ => show win0_0.index t (0 : Fin 3) * 1 + 1 * 0 = b.val; omega
  | ⟨1, _⟩ => show win0_0.index t (1 : Fin 3) * 1024 + 1 * n.val = n.val; omega
  | ⟨2, _⟩ => show win0_0.index t (2 : Fin 3) * 16 + 1 * cc.val = cc.val; omega

/-- What point t writes back is block t of the transposed closed form of the argument array. -/
theorem flushed_eq (c : Dev nD) (t : Fin cfg0.N) :
    (dats m 0 c).flushed 1 t
    = ((cfg0.win 1).blk t).view.read (Elt Ideal) (kerT (V m c main_arg0 : SX.Idx → EReal)) := by
  show (cfg0.win 1).cut (grid0.coords t) ((dats m 0 c).after 1 t) = _
  rw [after0_1]
  unfold out0_1
  rw [View.canon_unit_zero offsets_zero]
  simp only [View.ld_unit_zero (S := S1x1024x16) offsets_zero]
  obtain ⟨-, -, -, e0, e1, e2⟩ := idx_facts t
  have ht : t.val < 8 := by have := t.isLt; have hN : cfg0.N = 8 := N_0; omega
  funext y
  refine stored_block_at (V m c main_arg0 : SX.Idx → EReal) (iblk m c 0 t) y (((cfg0.win 1).blk t).view.emb y)
    (fun n cc => inputBlock_apply m c t _ ?_ n cc) ?_ ?_
  · show win0_1.index t (0 : Fin 3) * 1 + 1 * (y 0).val = t.val
    have hy : (y 0).val < 1 := (y 0).isLt
    omega
  · show win0_1.index t (1 : Fin 3) * 16 + 1 * (y 1).val = (y 1).val
    omega
  · show win0_1.index t (2 : Fin 3) * 1024 + 1 * (y 2).val = (y 2).val
    omega

/-- An index of the output array is in point t's block iff each coordinate is in the block's range on its axis. -/
theorem mem_blk (t : Fin cfg0.N) (i : S8x16x1024.Idx) :
    i ∈ ((cfg0.win 1).blk t).view.set ↔ ∀ a : Fin 3, win0_1.index t a * S1x16x1024.size a ≤ (i a).val
      ∧ (i a).val < win0_1.index t a * S1x16x1024.size a + S1x16x1024.size a := by
  show i ∈ ((View.whole main_v0).slice (win0_1.rect t)).set ↔ _
  rw [View.set_slice_whole, Rect.mem_set_unit]
  exact Iff.rfl

/-- Every index of the output array is in the block of the point named by its batch coordinate. -/
theorem covered (i : S8x16x1024.Idx) :
    ∃ t : Fin cfg0.N, (cfg0.win 1).flush t = true ∧ i ∈ ((cfg0.win 1).blk t).view.set := by
  have hi0 : (i 0).val < 8 := (i 0).isLt
  have hi1 : (i 1).val < 16 := (i 1).isLt
  have hi2 : (i 2).val < 1024 := (i 2).isLt
  obtain ⟨t, ht⟩ : ∃ t : Fin cfg0.N, t.val = (i 0).val := ⟨⟨(i 0).val, by have hN : cfg0.N = 8 := N_0; omega⟩, rfl⟩
  refine ⟨t, flush0_1 t, ?_⟩
  rw [mem_blk]
  obtain ⟨-, -, -, e0, e1, e2⟩ := idx_facts t
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 16 ≤ (i 1).val ∧ (i 1).val < win0_1.index t (1 : Fin 3) * 16 + 16; omega
  | ⟨2, _⟩ => show win0_1.index t (2 : Fin 3) * 1024 ≤ (i 2).val ∧ (i 2).val < win0_1.index t (2 : Fin 3) * 1024 + 1024; omega

/-- The kernel's output array after the last point: the transposed closed form of the argument. -/
theorem outputArray (c : Dev nD) :
    (dats m 0 c).arrAt 1 cfg0.N = kerT (m ((c : Thread nD τ).loc main_arg0) : SX.Idx → EReal) :=
  (dats m 0 c).arrAt_eq_of_cover 1 (kerT (V m c main_arg0 : SX.Idx → EReal)) (fun t _ => flushed_eq m c t) covered

end Cert.SoftRank

end
-- ==== Proof.KernelRun.lean ====
/-
  The kernel program's run, read: its result array is the closed form kerForm of the argument.

  After the region the kernel's own output array [8, 16, 1024] holds the transposed closed form; the one host operation
  after the region is the transpose [0, 2, 1], whose entry (b, j, c) is the operand's entry (b, c, j): the closed form
  at (b, j, c).
-/
import proofs.«164434_j6425271075476_2_alg».proof.Proof.KernelArray
import Idealize.ShloMosaic.Lib.ValueLayout

set_option maxRecDepth 16384

noncomputable section

namespace Cert.SoftRank

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- Transposing the kernel's output array back gives the closed form. -/
theorem transpose_kerT (X : SX.Idx → EReal) (h : S8x16x1024.Transposes [0, 2, 1] S8x1024x16) :
    transpose S8x1024x16 [0, 2, 1] (kerT X) h = kerForm X := by
  funext i
  obtain ⟨b, j, c, rfl⟩ : ∃ (b : Fin 8) (j : Fin 1024) (c : Fin 16), i = ix3 b j c := ⟨i 0, i 1, i 2, eq_ix3 i⟩
  exact transpose_ix3_021_apply (kerT X) h b j c

/-- The result buffer after the host's transpose, from the arrays the region leaves. -/
theorem result_eq (c : Dev nD) :
    Pipeline.afterTail₀ cfgs (dats m) 0 (V0 m) [hostOps1] c main_v1
      = (kerForm (m ((c : Thread nD τ).loc main_arg0) : SX.Idx → EReal) : SX.Idx → EReal) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = (kerT (m ((c : Thread nD τ).loc main_arg0) : SX.Idx → EReal) : S8x16x1024.Idx → EReal) :=
    (Pipeline.withArrays_arr spec0 launch0.win.arr_inj c _ _ 1).trans (outputArray m c)
  refine (congrArg (fun A => transpose S8x1024x16 [0, 2, 1] A transposes_S8x16x1024_S8x1024x16_0_2_1) hw).trans ?_
  exact transpose_kerT _ _

/-- Every weakly fair execution of the kernel program terminates with the result buffer at the closed form of the
    argument, and the argument unchanged. -/
theorem run : θ_run defs (onTc (τ := τ) (main (F := Ideal))) ⟨m, fun _ => 0, ρ⟩ fun r => ∀ c : Dev nD,
      r.2.mem ((c : Thread nD τ).loc main_v1) = (kerForm (m ((c : Thread nD τ).loc main_arg0) : SX.Idx → EReal) : SX.Idx → EReal)
      ∧ r.2.mem ((c : Thread nD τ).loc main_arg0) = m ((c : Thread nD τ).loc main_arg0) :=
  (θ_run defs _ _).mono (fun r h c =>
      ⟨((h c).2 main_v1 (Pipeline.mem_restRefs_of main_v1 rfl (by decide))).trans (result_eq m c),
       ((h c).1 0).trans (((dats m 0 c).arrAt_in 0 rfl _).trans ((A_eq m c 0).trans (V_main_arg0 m c)))⟩)
    (run_main m ρ)

end Cert.SoftRank

end
-- ==== Proof.Consts.lean ====
/-
  The float literals the two programs spell, as the extended reals their words denote: 0, ½, 1, 500, 1000, 1024
  and 2⁻¹⁰ = 1/1024. Each is a dyadic rational, so the word's value is exact.
-/
import Idealize.ShloMosaic.PureOps.Ideal

noncomputable section

namespace Cert.SoftRank.Consts

open Idealize.ShloMosaic

theorem ofBits_zero : Ideal.ofBits .f32 0x00000000#32 = 0 := by
  simp [Ideal.ofBits, Ideal.ieee]

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_500 : Ideal.ofBits .f32 0x43FA0000#32 = ((500 : ℝ) : EReal) := by
  simp [Ideal.ofBits, Ideal.ieee, -EReal.coe_mul]; norm_num

theorem ofBits_1000 : Ideal.ofBits .f32 0x447A0000#32 = ((1000 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

end Cert.SoftRank.Consts

end
-- ==== Proof.RefForm.lean ====
/-
  The reference program, read at one index, is the closed form refForm: at (b, j, c) it is 0 plus the sum over all
  1024 rows k of 1 / (1 + e^(−(1000·(x[b,j,c] − x[b,k,c])))), divided by 1024.
-/
import proofs.«164434_j6425271075476_2_alg».proof.Proof.Spec
import proofs.«164434_j6425271075476_2_alg».proof.Proof.Consts
import proofs.«164434_j6425271075476_2_alg».proof.Proof.Gen.ReferenceIdeal.Read

noncomputable section

namespace Cert.SoftRank

open Idealize.ShloMosaic Idealize.ShloMosaic.ValueIdx Cert.ReferenceIdeal.Read

/-- The two broadcasts of the argument, read at (b, j, k, c), are x[b,j,c] and x[b,k,c]. -/
theorem idx_first (b : Fin 8) (j k : Fin 1024) (c : Fin 16) :
    idx_main_v0 (idx_main_v2 (idx_main_v13 (ix3 b j c) k)) = ix3 b j c :=
  funext fun a => Fin.ext (by match a with | ⟨0, _⟩ => rfl | ⟨1, _⟩ => rfl | ⟨2, _⟩ => rfl)

theorem idx_second (b : Fin 8) (j k : Fin 1024) (c : Fin 16) :
    idx_main_v1 (idx_main_v3 (idx_main_v13 (ix3 b j c) k)) = ix3 b k c :=
  funext fun a => Fin.ext (by match a with | ⟨0, _⟩ => rfl | ⟨1, _⟩ => rfl | ⟨2, _⟩ => rfl)

/-- The summand of the reference's row sum at (b, j, c) and row k is the step of x[b,j,c] − x[b,k,c]. -/
theorem step_at (x0 : SX.Idx → EReal) (b : Fin 8) (j k : Fin 1024) (c : Fin 16) :
    val_main_v12 (F := Ideal) x0 (idx_main_v13 (ix3 b j c) k) = stepRef (x0 (ix3 b j c)) (x0 (ix3 b k c)) := by
  unfold stepRef
  rw [val_main_v12_apply, val_main_v11_apply, val_main_v10_apply, val_main_v9_apply, val_main_v8_apply,
    val_main_v7_apply, val_main_v6_apply, val_main_v5_apply, val_main_v4_apply, val_main_v2_apply,
    val_main_v0_apply, val_main_v3_apply, val_main_v1_apply, val_main_cst_apply, val_main_cst_0_apply,
    val_main_cst_1_apply, idx_first, idx_second]
  simp only [Ideal.hostDivf_def, Ideal.hostUnary_exp_def, Ideal.hostNegf_def, Ideal.negf_def, Ideal.mulf_def,
    Ideal.addf_def, Ideal.subf_def, Ideal.ofBits_def]

theorem ref_eq_refForm (x0 : SX.Idx → EReal) :
    Cert.ReferenceIdeal.Read.val_main_v15 (F := Idealize.ShloMosaic.Ideal) x0 = refForm x0 := by
  funext i
  obtain ⟨b, j, c, rfl⟩ : ∃ (b : Fin 8) (j : Fin 1024) (c : Fin 16), i = ValueIdx.ix3 b j c :=
    ⟨i 0, i 1, i 2, ValueIdx.eq_ix3 i⟩
  show val_main_v15 (F := Ideal) x0 (ix3 b j c) = refAt x0 b j c
  unfold refAt
  rw [val_main_v15_apply, val_main_v13_apply, val_main_v14_apply, val_main_cst_3_apply, val_main_cst_2_apply,
    Finset.sum_congr rfl fun k _ => step_at x0 b j k c]
  simp only [Ideal.hostDivf_def, Ideal.ofBits_def]

end Cert.SoftRank

end
-- ==== Proof.Law.lean ====
/-
  The law that joins the two closed forms.

  With every entry of x a real number, put d = x[b,j,c] − x[b,i,c]. Then
    ½·(tanh(500·d) + 1) = e^(500 d) / (e^(500 d) + e^(−500 d)) = 1 / (1 + e^(−(1000·d))),
  so the two programs apply the same step. A sum over 1024 rows is the sum of its eight consecutive
  groups of 128 rows (re-indexing row l + 128·k as the pair (k, l)), and multiplying by 2⁻¹⁰ is dividing
  by 1024. Finiteness of the entries is used only for the step: at an infinite entry the difference
  ∞ − ∞ has no meaning and the two spellings part.
-/
import proofs.«164434_j6425271075476_2_alg».proof.Proof.Spec
import proofs.«164434_j6425271075476_2_alg».proof.Proof.Consts

noncomputable section

namespace Cert.SoftRank

open Idealize.ShloMosaic Idealize.ShloMosaic.ValueIdx

/-- On the reals: ½·(tanh y + 1) = 1 / (1 + e^(−2y)) at y = 500·d, written with the literals of the two programs. -/
theorem step_real (d : ℝ) :
    (1 / 2 : ℝ) * (Real.tanh (500 * d) + 1) = 1 * (1 / (1 + Real.exp (-(1000 * d)))) := by
  have h1000 : Real.exp (-(1000 * d)) = (Real.exp (500 * d))⁻¹ * (Real.exp (500 * d))⁻¹ := by
    rw [← Real.exp_neg, ← Real.exp_add]; congr 1; ring
  have hp : Real.exp (500 * d) ≠ 0 := (Real.exp_pos _).ne'
  rw [Real.tanh_eq_sinh_div_cosh, Real.sinh_eq, Real.cosh_eq, h1000, Real.exp_neg]
  field_simp
  ring

/-- The reference's step at two real entries is the coercion of a real number. -/
theorem stepRef_coe (a b : ℝ) :
    stepRef (a : EReal) (b : EReal) = ((1 * (1 / (1 + Real.exp (-(1000 * (a - b))))) : ℝ) : EReal) := by
  have hne : (1 + Real.exp (-(1000 * (a - b))) : ℝ) ≠ 0 := by positivity
  rw [stepRef, Consts.ofBits_one, Consts.ofBits_1000, ← EReal.coe_sub, ← EReal.coe_mul, ← EReal.coe_neg,
    Ideal.exp_coe, ← EReal.coe_add, Ideal.div_coe hne, ← EReal.coe_mul]

/-- The kernel's step at two real entries is the coercion of a real number. -/
theorem stepKer_coe (a b : ℝ) :
    stepKer (a : EReal) (b : EReal) = (((1 / 2 : ℝ) * (Real.tanh (500 * (a - b)) + 1) : ℝ) : EReal) := by
  rw [stepKer, Consts.ofBits_half, Consts.ofBits_500, Consts.ofBits_one, ← EReal.coe_sub, ← EReal.coe_mul,
    Ideal.tanh_coe, ← EReal.coe_add, ← EReal.coe_mul]

/-- At real entries the two steps agree. -/
theorem stepKer_eq_stepRef (a b : ℝ) : stepKer (a : EReal) (b : EReal) = stepRef (a : EReal) (b : EReal) := by
  rw [stepKer_coe, stepRef_coe, step_real]

/-- A sum over 1024 rows is the sum of its eight consecutive groups of 128 rows, added in order onto 0. -/
theorem sum_eight_groups {M : Type*} [AddCommMonoid M] (f : Fin 1024 → M) :
    ((((((((0 + ∑ l : Fin 128, f (groupRow 0 (by omega) l)) + ∑ l : Fin 128, f (groupRow 128 (by omega) l))
      + ∑ l : Fin 128, f (groupRow 256 (by omega) l)) + ∑ l : Fin 128, f (groupRow 384 (by omega) l))
      + ∑ l : Fin 128, f (groupRow 512 (by omega) l)) + ∑ l : Fin 128, f (groupRow 640 (by omega) l))
      + ∑ l : Fin 128, f (groupRow 768 (by omega) l)) + ∑ l : Fin 128, f (groupRow 896 (by omega) l))
      = ∑ i : Fin 1024, f i := by
  have e : ∑ i : Fin 1024, f i = ∑ k : Fin 8, ∑ l : Fin 128, f (finProdFinEquiv (k, l)) := by
    rw [← Fintype.sum_prod_type (f := fun p : Fin 8 × Fin 128 => f (finProdFinEquiv p))]
    exact (Equiv.sum_comp (finProdFinEquiv : Fin 8 × Fin 128 ≃ Fin 1024) f).symm
  have g : ∀ (k : Fin 8) (o : Nat) (ho : o + 128 ≤ 1024), o = 128 * k.val →
      ∑ l : Fin 128, f (groupRow o ho l) = ∑ l : Fin 128, f (finProdFinEquiv (k, l)) := by
    intro k o ho hk
    refine Finset.sum_congr rfl (fun l _ => ?_)
    congr 1
    apply Fin.ext
    simp only [finProdFinEquiv_apply_val, groupRow]
    omega
  rw [e, Fin.sum_univ_eight, zero_add, g 0 0 _ rfl, g 1 128 _ rfl, g 2 256 _ rfl, g 3 384 _ rfl, g 4 512 _ rfl,
    g 5 640 _ rfl, g 6 768 _ rfl, g 7 896 _ rfl]

/-- Multiplying by 2⁻¹⁰ is adding onto 0 and dividing by 1024, at every extended real. -/
theorem scale_eq (S : EReal) :
    S * Ideal.ofBits .f32 0x3A800000#32
      = Ideal.div (Ideal.ofBits .f32 0x00000000#32 + S) (Ideal.ofBits .f32 0x44800000#32) := by
  rw [Consts.ofBits_inv1024, Consts.ofBits_zero, Consts.ofBits_1024, zero_add,
    Ideal.div_coe (by norm_num : (1024 : ℝ) ≠ 0)]

/-- At real entries the kernel's value and the reference's value agree, index by index. -/
theorem kerAt_eq_refAt (x : SX.Idx → EReal) (hx : AllReal x) (b : Fin 8) (j : Fin 1024) (c : Fin 16) :
    kerAt x b j c = refAt x b j c := by
  have hstep : ∀ i : Fin 1024,
      stepKer (x (ix3 b j c)) (x (ix3 b i c)) = stepRef (x (ix3 b j c)) (x (ix3 b i c)) := by
    intro i
    obtain ⟨a, ha⟩ := hx (ix3 b j c)
    obtain ⟨a', ha'⟩ := hx (ix3 b i c)
    rw [ha, ha', stepKer_eq_stepRef]
  have hsum := sum_eight_groups (fun i : Fin 1024 => stepKer (x (ix3 b j c)) (x (ix3 b i c)))
  calc kerAt x b j c
      = (∑ i : Fin 1024, stepKer (x (ix3 b j c)) (x (ix3 b i c))) * Ideal.ofBits .f32 0x3A800000#32 := by
        rw [kerAt, Consts.ofBits_zero]
        simp only [groupSum]
        rw [hsum]
    _ = (∑ i : Fin 1024, stepRef (x (ix3 b j c)) (x (ix3 b i c))) * Ideal.ofBits .f32 0x3A800000#32 := by
        rw [Finset.sum_congr rfl (fun i _ => hstep i)]
    _ = refAt x b j c := by
        rw [scale_eq, refAt]

/-- At a real array the kernel's result and the reference's result are the same array. -/
theorem kerForm_eq_refForm (x : SX.Idx → EReal) (hx : AllReal x) : kerForm x = refForm x := by
  funext i
  exact kerAt_eq_refAt x hx (i 0) (i 1) (i 2)

end Cert.SoftRank

end
-- ==== Proof.Finite.lean ====
/-
  The precondition |x| < +∞ at every index makes every entry of x a real number: the conjunction over all indices
  being true gives the comparison at each index, the word 0x7F800000 denotes +∞, and an extended real whose
  absolute value max(x, −x) lies strictly below +∞ is neither −∞ nor +∞.
-/
import proofs.«164434_j6425271075476_2_alg».proof.Proof.Spec
import proofs.«164434_j6425271075476_2_alg».proof.Pre_finite_inputs
import proofs.«164434_j6425271075476_2_alg».proof.Proof.Gen.Pre_finite_inputs
import Idealize.ShloMosaic.Lib.ReduceAll

noncomputable section

namespace Cert.SoftRank

open Idealize.ShloMosaic Idealize.ShloMosaic.ValueIdx

/-- The scalar shape has exactly one index. -/
instance subsingleton_scalar_idx : Subsingleton Cert.Pre_finite_inputs.S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value is strictly below +∞ is a real number. -/
theorem real_of_abs_lt_top (a : EReal) (h : Ideal.cmp .olt (max a (-a)) (⊤ : EReal) = 1#1) : ∃ r : ℝ, a = (r : EReal) := by
  induction a using EReal.rec with
  | bot => simp [Ideal.cmp] at h
  | coe r => exact ⟨r, rfl⟩
  | top => simp [Ideal.cmp] at h

theorem allReal_of_pre (x : Idealize.ShloMosaic.FVec Idealize.ShloMosaic.Ideal Cert.Pre_finite_inputs.S8x1024x16 .f32)
    (h : Cert.Pre_finite_inputs.fn (F := Idealize.ShloMosaic.Ideal) x = fun _ => 1#1) : AllReal x := by
  intro i
  have h0 := congrFun h ValueIdx.ix0
  dsimp only [Cert.Pre_finite_inputs.fn] at h0
  have hi := Host.reduce_andi_all _ _ _ _ _ h0 i
  change Ideal.cmp .olt (max (x i) (-(x i))) (Ideal.ofBits .f32 0x7F800000#32) = 1#1 at hi
  rw [ofBits_inf] at hi
  exact real_of_abs_lt_top (x i) hi

end Cert.SoftRank

end
-- ==== Proof.lean ====
/-
  Both programs compute, for an argument x of shape [8, 1024, 16] and at every (b, j, c), the mean over the 1024 rows i
  of a smooth step of x[b,j,c] − x[b,i,c].

  The reference spells the step as 1 / (1 + e^(−(1000·d))), sums over all rows at once and divides by 1024. The kernel
  works one batch per grid point: it spells the step as ½·(tanh(500·d) + 1), sums it over eight consecutive groups of
  128 rows, adds the group sums in order onto 0, multiplies by 2⁻¹⁰, and writes the batch transposed ([16, 1024]); the
  host transposes the whole output back.

  Over the extended reals the two agree wherever every entry of x is real, which the precondition gives:
  ½·(tanh y + 1) = 1 / (1 + e^(−2y)) for real y, a sum over 1024 rows is the sum of its eight groups of 128, and
  multiplying by 2⁻¹⁰ is dividing by 1024. The idealized kernel is the kernel's own text read over the extended reals
  (no operation was rewritten), so that part of the claim is trivial.
-/
import proofs.«164434_j6425271075476_2_alg».proof.Defs
import proofs.«164434_j6425271075476_2_alg».proof.Proof.Gen.Kernel
import proofs.«164434_j6425271075476_2_alg».proof.Proof.Gen.Kernel.Skeleton
import proofs.«164434_j6425271075476_2_alg».proof.Proof.Gen.Kernel.Launch
import proofs.«164434_j6425271075476_2_alg».proof.Proof.Gen.Kernel.Points
import proofs.«164434_j6425271075476_2_alg».proof.Proof.Gen.Kernel.Frame
import proofs.«164434_j6425271075476_2_alg».proof.Proof.Gen.KernelIdeal
import proofs.«164434_j6425271075476_2_alg».proof.Proof.Gen.KernelIdeal.Skeleton
import proofs.«164434_j6425271075476_2_alg».proof.Proof.Gen.KernelIdeal.Launch
import proofs.«164434_j6425271075476_2_alg».proof.Proof.Gen.KernelIdeal.Points
import proofs.«164434_j6425271075476_2_alg».proof.Proof.Gen.KernelIdeal.Frame
import proofs.«164434_j6425271075476_2_alg».proof.Proof.Gen.ReferenceIdeal
import proofs.«164434_j6425271075476_2_alg».proof.Proof.Gen.Pre_finite_inputs
import proofs.«164434_j6425271075476_2_alg».proof.Proof.Gen.ReferenceIdeal.Run
import proofs.«164434_j6425271075476_2_alg».proof.Proof.Gen.ReferenceIdeal.Read
import proofs.«164434_j6425271075476_2_alg».proof.Proof.KernelRun
import proofs.«164434_j6425271075476_2_alg».proof.Proof.RefForm
import proofs.«164434_j6425271075476_2_alg».proof.Proof.Law
import proofs.«164434_j6425271075476_2_alg».proof.Proof.Finite
import Idealize.ShloMosaic.Adequacy
import Idealize.ShloMosaic.Init

noncomputable section

namespace Cert.Proof

open Idealize.ShloMosaic Idealize.SL.Sem

/-- The kernel program runs and leaves its argument unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its argument unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on a finite argument, the kernel's result is its closed form and the reference's result is
    the reference's closed form of the same array; at a real array the two closed forms are one. -/
theorem algebraic : Cert.algebraic_KernelIdeal_ReferenceIdeal := by
  intro m ρ m' ρ' hpre hagree
  refine ⟨fun c => Cert.SoftRank.kerForm (m ((c.tc : Thread Cert.KernelIdeal.nD Cert.KernelIdeal.τ).loc Cert.KernelIdeal.main_arg0)),
    Cert.SoftRank.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.SoftRank.ref_eq_refForm, hagree c]
  exact (Cert.SoftRank.kerForm_eq_refForm _ (Cert.SoftRank.allReal_of_pre _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
